-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S32x256 : Shape := ⟨2, ![32, 256]⟩
abbrev S256 : Shape := ⟨1, ![256]⟩
abbrev S256x16 : Shape := ⟨2, ![256, 16]⟩
abbrev S16 : Shape := ⟨1, ![16]⟩
abbrev S256x256 : Shape := ⟨2, ![256, 256]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S16 .f32) (main_arg5 : FVec F S256x256 .f32) (main_arg6 : FVec F S256 .f32) (main_arg7 : FVec F S256x256 .f32) (main_arg8 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S65536x32 .f32) (main_arg1 : FVec F S32x256 .f32) (main_arg2 : FVec F S256 .f32) (main_arg3 : FVec F S256x16 .f32) (main_arg4 : FVec F S16 .f32) (main_arg5 : FVec F S256x256 .f32) (main_arg6 : FVec F S256 .f32) (main_arg7 : FVec F S256x256 .f32) (main_arg8 : FVec F S256 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_arg8 main_v13 main_v16
-- ==== Kernel.lean ====
abbrev S65536x32 : Shape := ⟨2, ![65536, 32]⟩
abbrev S32x256 : Shape := ⟨2, ![32, 256]⟩
abbrev S256 : Shape := ⟨1, ![256]⟩
abbrev S256x16 : Shape := ⟨2, ![256, 16]⟩
abbrev S16 : Shape := ⟨1, ![16]⟩
abbrev S256x256 : Shape := ⟨2, ![256, 256]⟩
abbrev S1x256 : Shape := ⟨2, ![1, 256]⟩
abbrev S1x16 : Shape := ⟨2, ![1, 16]⟩
abbrev S65536x16 : Shape := ⟨2, ![65536, 16]⟩
abbrev S65536x16x16x16 : Shape := ⟨4, ![65536, 16, 16, 16]⟩
abbrev S65536x16x16 : Shape := ⟨3, ![65536, 16, 16]⟩
abbrev S512x32 : Shape := ⟨2, ![512, 32]⟩
abbrev S512x16 : Shape := ⟨2, ![512, 16]⟩
abbrev S512x16x16x16 : Shape := ⟨4, ![512, 16, 16, 16]⟩
abbrev S512x16x16 : Shape := ⟨3, ![512, 16, 16]⟩
abbrev S512x256 : Shape := ⟨2, ![512, 256]⟩
abbrev S512 : Shape := ⟨1, ![512]⟩
abbrev S512x1 : Shape := ⟨2, ![512, 1]⟩
abbrev S16x16 : Shape := ⟨2, ![16, 16]⟩
abbrev S512x16x16x1 : Shape := ⟨4, ![512, 16, 16, 1]⟩
abbrev S1x1x16x16 : Shape := ⟨4, ![1, 1, 16, 16]⟩

abbrev nBuf : Space → Nat
  | .hbm => 16
  | .vmem => 16
  | .smem => 0
  | _ => 0

abbrev bufTy : (tb : Table) → Fin (tcTables nBuf tb) → BufTy
  | .hbm, ⟨0, _⟩ => ⟨S65536x32, .f32⟩
  | .hbm, ⟨1, _⟩ => ⟨S32x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1x16, .f32⟩
  | .hbm, ⟨11, _⟩ => ⟨S1x256, .f32⟩
  | .hbm, ⟨12, _⟩ => ⟨S1x256, .f32⟩
  | .hbm, ⟨13, _⟩ => ⟨S65536x16, .f32⟩
  | .hbm, ⟨14, _⟩ => ⟨S65536x16x16x16, .f32⟩
  | .hbm, ⟨15, _⟩ => ⟨S65536x16x16, .f32⟩
  | .local _ .vmem, ⟨0, _⟩ => ⟨S512x32, .f32⟩
  | .local _ .vmem, ⟨1, _⟩ => ⟨S512x32, .f32⟩
  | .local _ .vmem, ⟨2, _⟩ => ⟨S32x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S512x16, .f32⟩
  | .local _ .vmem, ⟨11, _⟩ => ⟨S512x16, .f32⟩
  | .local _ .vmem, ⟨12, _⟩ => ⟨S512x16x16x16, .f32⟩
  | .local _ .vmem, ⟨13, _⟩ => ⟨S512x16x16x16, .f32⟩
  | .local _ .vmem, ⟨14, _⟩ => ⟨S512x16x16, .f32⟩
  | .local _ .vmem, ⟨15, _⟩ => ⟨S512x16x16, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16x16x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S256_S1x256 : S256.ShapeCasts S1x256
  shapeCasts_S16_S1x16 : S16.ShapeCasts S1x16
  inb_S512x32_S512x32_0_0 : ∀ a, (![0, 0] : Fin 2 → Nat) a + S512x32.size a ≤ S512x32.size a
  h_S512x32 : 0 < S512x32.numel
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  inb_S512x16_S512x16_0_0 : ∀ a, (![0, 0] : Fin 2 → Nat) a + S512x16.size a ≤ S512x16.size a
  h_S512x16 : 0 < S512x16.numel
  inb_S256x256_S256x256_0_0 : ∀ a, (![0, 0] : Fin 2 → Nat) a + S256x256.size a ≤ S256x256.size a
  h_S256x256 : 0 < S256x256.numel
  shapeCasts_S512x256_S512x16x16 : S512x256.ShapeCasts S512x16x16
  iota_S16x16_d0_w32 : S16x16.Iotas .tc 32 [0]
  iota_S16x16_d1_w32 : S16x16.Iotas .tc 32 [1]
  natLt_1_32 : 1 < 32
  shapeCasts_S512x16x16_S512x16x16x1 : S512x16x16.ShapeCasts S512x16x16x1
  shapeCasts_S16x16_S1x1x16x16 : S16x16.ShapeCasts S1x1x16x16
  broadcasts_S512x16x16x1_S512x16x16x16 : S512x16x16x1.Broadcasts S512x16x16x16
  broadcasts_S1x1x16x16_S512x16x16x16 : S1x1x16x16.Broadcasts S512x16x16x16
  inb_S512x16x16x16_S512x16x16x16_0_0_0_0 : ∀ a, (![0, 0, 0, 0] : Fin 4 → Nat) a + S512x16x16x16.size a ≤ S512x16x16x16.size a
  h_S512x16x16x16 : 0 < S512x16x16x16.numel
  inb_S512x16x16_S512x16x16_0_0_0 : ∀ a, (![0, 0, 0] : Fin 3 → Nat) a + S512x16x16.size a ≤ S512x16x16.size a
  h_S512x16x16 : 0 < S512x16x16.numel
  dot_S512x32_S32x256_S512x256_1_0_0_1_n_n_wf : DotDims.WF S512x32 S32x256 S512x256 [1] [0] [0] [1] [] []
  dot_S512x256_S256x16_S512x16_1_0_0_1_n_n_wf : DotDims.WF S512x256 S256x16 S512x16 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S65536x32.size a
  hwx0_0 : ∀ i : grid0.Coords, EltTy.bits .f32 = 32 ∨ (Rect.block (s := S65536x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x16.size a ≤ S65536x16.size a
  hwx0_9 : ∀ i : grid0.Coords, EltTy.bits .f32 = 32 ∨ (Rect.block (s := S65536x16) S512x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x16x16x16.size a ≤ S65536x16x16x16.size a
  hwx0_10 : ∀ i : grid0.Coords, EltTy.bits .f32 = 32 ∨ (Rect.block (s := S65536x16x16x16) S512x16x16x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x16x16.size a ≤ S65536x16x16.size a
  hwx0_11 : ∀ i : grid0.Coords, EltTy.bits .f32 = 32 ∨ (Rect.block (s := S65536x16x16) S512x16x16.size (cc0_transform_11 i) (hinb0_11 i)).WholeWords (EltTy.packing .f32)

variable [Facts₀]

def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf
def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S512x16.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S512x16x16x16.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S512x16x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x32 : Shape := ⟨2, ![65536, 32]⟩
abbrev S32x256 : Shape := ⟨2, ![32, 256]⟩
abbrev S256 : Shape := ⟨1, ![256]⟩
abbrev S256x16 : Shape := ⟨2, ![256, 16]⟩
abbrev S16 : Shape := ⟨1, ![16]⟩
abbrev S256x256 : Shape := ⟨2, ![256, 256]⟩
abbrev S65536x256 : Shape := ⟨2, ![65536, 256]⟩
abbrev S1x256 : Shape := ⟨2, ![1, 256]⟩
abbrev S65536x16 : Shape := ⟨2, ![65536, 16]⟩
abbrev S1x16 : Shape := ⟨2, ![1, 16]⟩
abbrev S_ : Shape := ⟨0, ![]⟩
abbrev S65536 : Shape := ⟨1, ![65536]⟩
abbrev S65536x1 : Shape := ⟨2, ![65536, 1]⟩
abbrev S65536x16x16 : Shape := ⟨3, ![65536, 16, 16]⟩
abbrev S16x16 : Shape := ⟨2, ![16, 16]⟩
abbrev S65536x16x16x1 : Shape := ⟨4, ![65536, 16, 16, 1]⟩
abbrev S1x1x16x16 : Shape := ⟨4, ![1, 1, 16, 16]⟩
abbrev S65536x16x16x16 : Shape := ⟨4, ![65536, 16, 16, 16]⟩

abbrev nBuf : Space → Nat
  | .hbm => 55
  | .vmem => 0
  | .smem => 0
  | _ => 0

abbrev bufTy : (tb : Table) → Fin (tcTables nBuf tb) → BufTy
  | .hbm, ⟨0, _⟩ => ⟨S65536x32, .f32⟩
  | .hbm, ⟨1, _⟩ => ⟨S32x256, .f32⟩
  | .hbm, ⟨2, _⟩ => ⟨S256, .f32⟩
  | .hbm, ⟨3, _⟩ => ⟨S256x16, .f32⟩
  | .hbm, ⟨4, _⟩ => ⟨S16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S65536x256, .f32⟩
  | .hbm, ⟨10, _⟩ => ⟨S1x256, .f32⟩
  | .hbm, ⟨11, _⟩ => ⟨S65536x256, .f32⟩
  | .hbm, ⟨12, _⟩ => ⟨S65536x256, .f32⟩
  | .hbm, ⟨13, _⟩ => ⟨S65536x256, .f32⟩
  | .hbm, ⟨14, _⟩ => ⟨S65536x16, .f32⟩
  | .hbm, ⟨15, _⟩ => ⟨S1x16, .f32⟩
  | .hbm, ⟨16, _⟩ => ⟨S65536x16, .f32⟩
  | .hbm, ⟨17, _⟩ => ⟨S65536x16, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536x1, .f32⟩
  | .hbm, ⟨24, _⟩ => ⟨S65536x16, .f32⟩
  | .hbm, ⟨25, _⟩ => ⟨S65536x16, .f32⟩
  | .hbm, ⟨26, _⟩ => ⟨S65536x16, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x16, .f32⟩
  | .hbm, ⟨31, _⟩ => ⟨S65536x16, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x16x16, .f32⟩
  | .hbm, ⟨38, _⟩ => ⟨S16x16, .i32⟩
  | .hbm, ⟨39, _⟩ => ⟨S16x16, .i32⟩
  | .hbm, ⟨40, _⟩ => ⟨S_, .i32⟩
  | .hbm, ⟨41, _⟩ => ⟨S16x16, .i32⟩
  | .hbm, ⟨42, _⟩ => ⟨S16x16, .i32⟩
  | .hbm, ⟨43, _⟩ => ⟨S16x16, .i1⟩
  | .hbm, ⟨44, _⟩ => ⟨S16x16, .f32⟩
  | .hbm, ⟨45, _⟩ => ⟨S65536x16x16x1, .f32⟩
  | .hbm, ⟨46, _⟩ => ⟨S1x1x16x16, .f32⟩
  | .hbm, ⟨47, _⟩ => ⟨S65536x16x16x16, .f32⟩
  | .hbm, ⟨48, _⟩ => ⟨S65536x16x16x16, .f32⟩
  | .hbm, ⟨49, _⟩ => ⟨S65536x16x16x16, .f32⟩
  | .hbm, ⟨50, _⟩ => ⟨S65536x256, .f32⟩
  | .hbm, ⟨51, _⟩ => ⟨S1x256, .f32⟩
  | .hbm, ⟨52, _⟩ => ⟨S65536x256, .f32⟩
  | .hbm, ⟨53, _⟩ => ⟨S65536x256, .f32⟩
  | .hbm, ⟨54, _⟩ => ⟨S65536x16x16, .f32⟩
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  reducesTo_S65536x16_S65536_d1 : S65536x16.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x16_0_1 : S65536x1.BroadcastsInDim S65536x16 (![0, 1] : Fin 2 → Fin S65536x16.rank)
  shapeCasts_S65536x256_S65536x16x16 : S65536x256.ShapeCasts S65536x16x16
  bcast_S_S16x16 : S_.BroadcastsInDim S16x16 (![] : Fin 0 → Fin S16x16.rank)
  bcast_S65536x16x16_S65536x16x16x1_0_1_2 : S65536x16x16.BroadcastsInDim S65536x16x16x1 (![0, 1, 2] : Fin 3 → Fin S65536x16x16x1.rank)
  bcast_S16x16_S1x1x16x16_2_3 : S16x16.BroadcastsInDim S1x1x16x16 (![2, 3] : Fin 2 → Fin S1x1x16x16.rank)
  bcast_S65536x16x16x1_S65536x16x16x16_0_1_2_3 : S65536x16x16x1.BroadcastsInDim S65536x16x16x16 (![0, 1, 2, 3] : Fin 4 → Fin S65536x16x16x16.rank)
  bcast_S1x1x16x16_S65536x16x16x16_0_1_2_3 : S1x1x16x16.BroadcastsInDim S65536x16x16x16 (![0, 1, 2, 3] : Fin 4 → Fin S65536x16x16x16.rank)
  dot_S65536x32_S32x256_S65536x256_1_0_0_1_n_n_wf : DotDims.WF S65536x32 S32x256 S65536x256 [1] [0] [0] [1] [] []
  dot_S65536x256_S256x16_S65536x16_1_0_0_1_n_n_wf : DotDims.WF S65536x256 S256x16 S65536x16 [1] [0] [0] [1] [] []
  dot_S65536x256_S256x256_S65536x256_1_0_0_1_n_n_wf : DotDims.WF S65536x256 S256x256 S65536x256 [1] [0] [0] [1] [] []

variable [Facts₀]

def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf
def dot_S65536x256_S256x16_S65536x16_1_0_0_1_n_n : DotDims S65536x256 S256x16 S65536x16 where
  lhsContracting := [1]
  rhsContracting := [0]
  lhsNonContracting := [0]
  rhsNonContracting := [1]
  lhsBatch := []
  rhsBatch := []
  wf := dot_S65536x256_S256x16_S65536x16_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  The heads of a mixture-density network, one batch row at a time, over the extended reals.

  A row x of 32 features goes through one hidden layer, z = tanh (x W1 + b1), of 256 units. Three affine heads read z:
  the mixture weights pi = softmax (z Wpi + bpi) over 16 components (the softmax taken after subtracting the row's
  maximum, itself taken from minus infinity); the diagonal scales exp (z Wsig + bsig), 256 numbers read as a 16 x 16
  table (component k, coordinate i at position 16 k + i) and spread on the diagonal of a 16 x 16 matrix per component
  (entry (i, j) is the scale times 1 when i = j and times 0 otherwise); and the means z Wmu + bmu, read as the same
  16 x 16 table. Every sum is an unordered finite sum, so nothing here depends on how many rows are computed at once.
-/
import Idealize.ShloMosaic.PureOps.Ideal
import Idealize.ShloMosaic.Lib.ValueIdx

noncomputable section

open scoped BigOperators

namespace Cert.Mdn

open Idealize.ShloMosaic Idealize.ShloMosaic.ValueIdx

/-- Minus infinity, as the word both programs write it. -/
abbrev negInf : EReal := Ideal.ofBits .f32 0xFF800000#32

/-! ## One row -/

/-- An affine layer at one row: entry q of z W + b. -/
def affine {K N : ℕ} (z : Fin K → EReal) (W : Fin K → Fin N → EReal) (b : Fin N → EReal) (q : Fin N) : EReal :=
  (∑ k : Fin K, z k * W k q) + b q

/-- The hidden layer at one row. -/
def hidden (xr : Fin 32 → EReal) (W1 : Fin 32 → Fin 256 → EReal) (b1 : Fin 256 → EReal) (h : Fin 256) : EReal :=
  Ideal.tanh (affine xr W1 b1 h)

/-- The maximum of 16 logits, folded from minus infinity and then compared with minus infinity once more. -/
def rowMax (l : Fin 16 → EReal) : EReal :=
  max negInf ((Finset.univ : Finset (Fin 16)).fold max negInf l)

/-- The softmax of 16 logits, shifted by their maximum. -/
def softmax (l : Fin 16 → EReal) (q : Fin 16) : EReal :=
  Ideal.div (Ideal.exp (l q - rowMax l)) (∑ q' : Fin 16, Ideal.exp (l q' - rowMax l))

/-- The identity matrix of order 16. -/
def eye (i j : Fin 16) : EReal := if i = j then 1 else 0

/-- Position 16 k + i of a row of 256, for component k and coordinate i. -/
def flat (k i : Fin 16) : Fin 256 := ⟨k.val * 16 + i.val, by have := k.isLt; have := i.isLt; omega⟩

/-- The mixture weights of one row. -/
def piRow (xr : Fin 32 → EReal) (W1 : Fin 32 → Fin 256 → EReal) (b1 : Fin 256 → EReal)
    (Wpi : Fin 256 → Fin 16 → EReal) (bpi : Fin 16 → EReal) (q : Fin 16) : EReal :=
  softmax (affine (hidden xr W1 b1) Wpi bpi) q

/-- The scale matrices of one row: component k, entry (i, j). -/
def sigmaRow (xr : Fin 32 → EReal) (W1 : Fin 32 → Fin 256 → EReal) (b1 : Fin 256 → EReal)
    (Wsig : Fin 256 → Fin 256 → EReal) (bsig : Fin 256 → EReal) (k i j : Fin 16) : EReal :=
  Ideal.exp (affine (hidden xr W1 b1) Wsig bsig (flat k i)) * eye i j

/-- The means of one row: component k, coordinate i. -/
def muRow (xr : Fin 32 → EReal) (W1 : Fin 32 → Fin 256 → EReal) (b1 : Fin 256 → EReal)
    (Wmu : Fin 256 → Fin 256 → EReal) (bmu : Fin 256 → EReal) (k i : Fin 16) : EReal :=
  affine (hidden xr W1 b1) Wmu bmu (flat k i)

/-! ## Arrays as rows, matrices and vectors -/

/-- Row r of a two-axis array. -/
def rowAt {R K : ℕ} (X : (⟨2, ![R, K]⟩ : Shape).Idx → EReal) (r : Fin R) : Fin K → EReal := fun k => X (ix2 r k)

/-- A two-axis array as a function of its two coordinates. -/
def mat {K N : ℕ} (W : (⟨2, ![K, N]⟩ : Shape).Idx → EReal) : Fin K → Fin N → EReal := fun k q => W (ix2 k q)

/-- A one-axis array as a function of its coordinate. -/
def vec {N : ℕ} (b : (⟨1, ![N]⟩ : Shape).Idx → EReal) : Fin N → EReal := fun q => b (ix1 q)

/-! ## The three results over the whole batch -/

section whole

variable (X : FVec Ideal ⟨2, ![65536, 32]⟩ .f32) (W1 : FVec Ideal ⟨2, ![32, 256]⟩ .f32) (b1 : FVec Ideal ⟨1, ![256]⟩ .f32)

/-- The mixture weights, [65536, 16]. -/
def piAll (Wpi : FVec Ideal ⟨2, ![256, 16]⟩ .f32) (bpi : FVec Ideal ⟨1, ![16]⟩ .f32) : FVec Ideal ⟨2, ![65536, 16]⟩ .f32 :=
  fun i => piRow (rowAt X ⟨(i 0).val, (i 0).isLt⟩) (mat W1) (vec b1) (mat Wpi) (vec bpi) ⟨(i 1).val, (i 1).isLt⟩

/-- The scale matrices, [65536, 16, 16, 16]. -/
def sigmaAll (Wsig : FVec Ideal ⟨2, ![256, 256]⟩ .f32) (bsig : FVec Ideal ⟨1, ![256]⟩ .f32) :
    FVec Ideal ⟨4, ![65536, 16, 16, 16]⟩ .f32 :=
  fun i => sigmaRow (rowAt X ⟨(i 0).val, (i 0).isLt⟩) (mat W1) (vec b1) (mat Wsig) (vec bsig)
    ⟨(i 1).val, (i 1).isLt⟩ ⟨(i 2).val, (i 2).isLt⟩ ⟨(i 3).val, (i 3).isLt⟩

/-- The means, [65536, 16, 16]. -/
def muAll (Wmu : FVec Ideal ⟨2, ![256, 256]⟩ .f32) (bmu : FVec Ideal ⟨1, ![256]⟩ .f32) :
    FVec Ideal ⟨3, ![65536, 16, 16]⟩ .f32 :=
  fun i => muRow (rowAt X ⟨(i 0).val, (i 0).isLt⟩) (mat W1) (vec b1) (mat Wmu) (vec bmu)
    ⟨(i 1).val, (i 1).isLt⟩ ⟨(i 2).val, (i 2).isLt⟩

theorem piAll_ix2 (Wpi : FVec Ideal ⟨2, ![256, 16]⟩ .f32) (bpi : FVec Ideal ⟨1, ![16]⟩ .f32) (r : Fin 65536) (q : Fin 16) :
    piAll X W1 b1 Wpi bpi (ix2 r q) = piRow (rowAt X r) (mat W1) (vec b1) (mat Wpi) (vec bpi) q := rfl

theorem sigmaAll_ix4 (Wsig : FVec Ideal ⟨2, ![256, 256]⟩ .f32) (bsig : FVec Ideal ⟨1, ![256]⟩ .f32) (r : Fin 65536)
    (k i j : Fin 16) :
    sigmaAll X W1 b1 Wsig bsig (ix4 r k i j) = sigmaRow (rowAt X r) (mat W1) (vec b1) (mat Wsig) (vec bsig) k i j := rfl

theorem muAll_ix3 (Wmu : FVec Ideal ⟨2, ![256, 256]⟩ .f32) (bmu : FVec Ideal ⟨1, ![256]⟩ .f32) (r : Fin 65536) (k i : Fin 16) :
    muAll X W1 b1 Wmu bmu (ix3 r k i) = muRow (rowAt X r) (mat W1) (vec b1) (mat Wmu) (vec bmu) k i := rfl

end whole

end Cert.Mdn

end
-- ==== Proof.Blocks.lean ====
/-
  The blocks the kernel's body is handed at a grid point, as pieces of the program's arguments.

  Grid point t is handed rows 512 t … 512 t + 511 of x; the four weight matrices whole, at every point; and each bias
  as the one row of a [1, n] array that the program makes from the bias vector by a reshape before the kernel is
  launched. Each block is read here through the row / matrix / vector views of the specification.
-/
import proofs.«161741_j6485400617753_1_alg».proof.Proof.Gen.KernelIdeal.Value
import proofs.«161741_j6485400617753_1_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.Mdn

variable (m : (ℓ : Loc nD τ sig) → Buf (Elt Ideal) ℓ)

/-- The block indices at grid point t: the batch axis of x and of the three results moves with t, every other block
    index is 0 (decided over the 128 points). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 4) = t.val ∧ win0_10.index t (1 : Fin 4) = 0 ∧ win0_10.index t (2 : Fin 4) = 0
        ∧ win0_10.index t (3 : Fin 4) = 0)
    ∧ (win0_11.index t (0 : Fin 3) = t.val ∧ win0_11.index t (1 : Fin 3) = 0 ∧ win0_11.index t (2 : Fin 3) = 0) :=
  (by decide +kernel : ∀ t : Fin grid0.N, _)

/-! ## x: rows 512 t … 512 t + 511 -/

/-- Row p of the block of x at point t is row 512 t + p of x. -/
theorem x_rows (c : Dev nD) (t : Fin cfg0.N) (p : Fin 512) (r : Fin 65536) (hr : r.val = t.val * 512 + p.val) :
    rowAt (iblk m c 0 t : Vec Ideal S512x32 .f32) p
      = rowAt (m ((c : Thread nD τ).loc main_arg0) : S65536x32.Idx → EReal) r := by
  obtain ⟨⟨e0, e1⟩, -⟩ := idx_facts t
  funext k
  show (iblk m c 0 t : Vec Ideal S512x32 .f32) (ix2 p k) = _
  unfold iblk
  rw [View.read_apply]
  show V m c main_arg0 _ = _
  rw [V_main_arg0]
  show _ = (m ((c : Thread nD τ).loc main_arg0) : S65536x32.Idx → EReal) (ix2 r k)
  congr 1
  funext a
  apply Fin.ext
  match a with
  | ⟨0, _⟩ => show win0_0.index t (0 : Fin 2) * 512 + 1 * p.val = r.val; rw [e0, hr]; omega
  | ⟨1, _⟩ => show win0_0.index t (1 : Fin 2) * 32 + 1 * k.val = k.val; rw [e1]; omega

/-! ## The weights: whole at every point -/

theorem w1_whole (c : Dev nD) (t : Fin cfg0.N) :
    mat (iblk m c 1 t : Vec Ideal S32x256 .f32) = mat (m ((c : Thread nD τ).loc main_arg1) : S32x256.Idx → EReal) := by
  obtain ⟨-, ⟨e0, e1⟩, -⟩ := idx_facts t
  funext k q
  show (iblk m c 1 t : Vec Ideal S32x256 .f32) (ix2 k q) = _
  unfold iblk
  rw [View.read_apply]
  show V m c main_arg1 _ = _
  rw [V_main_arg1]
  show _ = (m ((c : Thread nD τ).loc main_arg1) : S32x256.Idx → EReal) (ix2 k q)
  congr 1
  funext a
  apply Fin.ext
  match a with
  | ⟨0, _⟩ => show win0_1.index t (0 : Fin 2) * 32 + 1 * k.val = k.val; rw [e0]; omega
  | ⟨1, _⟩ => show win0_1.index t (1 : Fin 2) * 256 + 1 * q.val = q.val; rw [e1]; omega

theorem wpi_whole (c : Dev nD) (t : Fin cfg0.N) :
    mat (iblk m c 3 t : Vec Ideal S256x16 .f32) = mat (m ((c : Thread nD τ).loc main_arg3) : S256x16.Idx → EReal) := by
  obtain ⟨-, -, -, ⟨e0, e1⟩, -⟩ := idx_facts t
  funext k q
  show (iblk m c 3 t : Vec Ideal S256x16 .f32) (ix2 k q) = _
  unfold iblk
  rw [View.read_apply]
  show V m c main_arg3 _ = _
  rw [V_main_arg3]
  show _ = (m ((c : Thread nD τ).loc main_arg3) : S256x16.Idx → EReal) (ix2 k q)
  congr 1
  funext a
  apply Fin.ext
  match a with
  | ⟨0, _⟩ => show win0_3.index t (0 : Fin 2) * 256 + 1 * k.val = k.val; rw [e0]; omega
  | ⟨1, _⟩ => show win0_3.index t (1 : Fin 2) * 16 + 1 * q.val = q.val; rw [e1]; omega

theorem wsig_whole (c : Dev nD) (t : Fin cfg0.N) :
    mat (iblk m c 5 t : Vec Ideal S256x256 .f32) = mat (m ((c : Thread nD τ).loc main_arg5) : S256x256.Idx → EReal) := by
  obtain ⟨-, -, -, -, -, ⟨e0, e1⟩, -⟩ := idx_facts t
  funext k q
  show (iblk m c 5 t : Vec Ideal S256x256 .f32) (ix2 k q) = _
  unfold iblk
  rw [View.read_apply]
  show V m c main_arg5 _ = _
  rw [V_main_arg5]
  show _ = (m ((c : Thread nD τ).loc main_arg5) : S256x256.Idx → EReal) (ix2 k q)
  congr 1
  funext a
  apply Fin.ext
  match a with
  | ⟨0, _⟩ => show win0_5.index t (0 : Fin 2) * 256 + 1 * k.val = k.val; rw [e0]; omega
  | ⟨1, _⟩ => show win0_5.index t (1 : Fin 2) * 256 + 1 * q.val = q.val; rw [e1]; omega

theorem wmu_whole (c : Dev nD) (t : Fin cfg0.N) :
    mat (iblk m c 7 t : Vec Ideal S256x256 .f32) = mat (m ((c : Thread nD τ).loc main_arg7) : S256x256.Idx → EReal) := by
  obtain ⟨-, -, -, -, -, -, -, ⟨e0, e1⟩, -⟩ := idx_facts t
  funext k q
  show (iblk m c 7 t : Vec Ideal S256x256 .f32) (ix2 k q) = _
  unfold iblk
  rw [View.read_apply]
  show V m c main_arg7 _ = _
  rw [V_main_arg7]
  show _ = (m ((c : Thread nD τ).loc main_arg7) : S256x256.Idx → EReal) (ix2 k q)
  congr 1
  funext a
  apply Fin.ext
  match a with
  | ⟨0, _⟩ => show win0_7.index t (0 : Fin 2) * 256 + 1 * k.val = k.val; rw [e0]; omega
  | ⟨1, _⟩ => show win0_7.index t (1 : Fin 2) * 256 + 1 * q.val = q.val; rw [e1]; omega

/-! ## The biases: the one row of the reshaped vector -/

/-- When the kernel is launched, the [1, 256] array of window 2 is the first bias vector reshaped. -/
theorem b1_entry (c : Dev nD) : (V m c main_v0 : S1x256.Idx → EReal)
    = shapeCast S1x256 (m ((c : Thread nD τ).loc main_arg2)) shapeCasts_S256_S1x256 := by
  dsimp only [Gen.V, Gen.hostOps0]
  after_results
  rfl

theorem bpi_entry (c : Dev nD) : (V m c main_v1 : S1x16.Idx → EReal)
    = shapeCast S1x16 (m ((c : Thread nD τ).loc main_arg4)) shapeCasts_S16_S1x16 := by
  dsimp only [Gen.V, Gen.hostOps0]
  after_results
  rfl

theorem bsig_entry (c : Dev nD) : (V m c main_v2 : S1x256.Idx → EReal)
    = shapeCast S1x256 (m ((c : Thread nD τ).loc main_arg6)) shapeCasts_S256_S1x256 := by
  dsimp only [Gen.V, Gen.hostOps0]
  after_results
  rfl

theorem bmu_entry (c : Dev nD) : (V m c main_v3 : S1x256.Idx → EReal)
    = shapeCast S1x256 (m ((c : Thread nD τ).loc main_arg8)) shapeCasts_S256_S1x256 := by
  dsimp only [Gen.V, Gen.hostOps0]
  after_results
  rfl

theorem b1_row (c : Dev nD) (t : Fin cfg0.N) :
    rowAt (iblk m c 2 t : Vec Ideal S1x256 .f32) (0 : Fin 1) = vec (m ((c : Thread nD τ).loc main_arg2) : S256.Idx → EReal) := by
  obtain ⟨-, -, ⟨e0, e1⟩, -⟩ := idx_facts t
  funext h
  show (iblk m c 2 t : Vec Ideal S1x256 .f32) (ix2 (0 : Fin 1) h) = _
  unfold iblk
  rw [View.read_apply]
  show (V m c main_v0 : S1x256.Idx → EReal) _ = _
  rw [b1_entry]
  refine Eq.trans (congrArg _ ?_) (shapeCast_a_1a_apply (m ((c : Thread nD τ).loc main_arg2) : S256.Idx → EReal) shapeCasts_S256_S1x256 (0 : Fin 1) h)
  funext a
  apply Fin.ext
  match a with
  | ⟨0, _⟩ => show win0_2.index t (0 : Fin 2) * 1 + 1 * 0 = 0; rw [e0]
  | ⟨1, _⟩ => show win0_2.index t (1 : Fin 2) * 256 + 1 * h.val = h.val; rw [e1]; omega

theorem bpi_row (c : Dev nD) (t : Fin cfg0.N) :
    rowAt (iblk m c 4 t : Vec Ideal S1x16 .f32) (0 : Fin 1) = vec (m ((c : Thread nD τ).loc main_arg4) : S16.Idx → EReal) := by
  obtain ⟨-, -, -, -, ⟨e0, e1⟩, -⟩ := idx_facts t
  funext h
  show (iblk m c 4 t : Vec Ideal S1x16 .f32) (ix2 (0 : Fin 1) h) = _
  unfold iblk
  rw [View.read_apply]
  show (V m c main_v1 : S1x16.Idx → EReal) _ = _
  rw [bpi_entry]
  refine Eq.trans (congrArg _ ?_) (shapeCast_a_1a_apply (m ((c : Thread nD τ).loc main_arg4) : S16.Idx → EReal) shapeCasts_S16_S1x16 (0 : Fin 1) h)
  funext a
  apply Fin.ext
  match a with
  | ⟨0, _⟩ => show win0_4.index t (0 : Fin 2) * 1 + 1 * 0 = 0; rw [e0]
  | ⟨1, _⟩ => show win0_4.index t (1 : Fin 2) * 16 + 1 * h.val = h.val; rw [e1]; omega

theorem bsig_row (c : Dev nD) (t : Fin cfg0.N) :
    rowAt (iblk m c 6 t : Vec Ideal S1x256 .f32) (0 : Fin 1) = vec (m ((c : Thread nD τ).loc main_arg6) : S256.Idx → EReal) := by
  obtain ⟨-, -, -, -, -, -, ⟨e0, e1⟩, -⟩ := idx_facts t
  funext h
  show (iblk m c 6 t : Vec Ideal S1x256 .f32) (ix2 (0 : Fin 1) h) = _
  unfold iblk
  rw [View.read_apply]
  show (V m c main_v2 : S1x256.Idx → EReal) _ = _
  rw [bsig_entry]
  refine Eq.trans (congrArg _ ?_) (shapeCast_a_1a_apply (m ((c : Thread nD τ).loc main_arg6) : S256.Idx → EReal) shapeCasts_S256_S1x256 (0 : Fin 1) h)
  funext a
  apply Fin.ext
  match a with
  | ⟨0, _⟩ => show win0_6.index t (0 : Fin 2) * 1 + 1 * 0 = 0; rw [e0]
  | ⟨1, _⟩ => show win0_6.index t (1 : Fin 2) * 256 + 1 * h.val = h.val; rw [e1]; omega

theorem bmu_row (c : Dev nD) (t : Fin cfg0.N) :
    rowAt (iblk m c 8 t : Vec Ideal S1x256 .f32) (0 : Fin 1) = vec (m ((c : Thread nD τ).loc main_arg8) : S256.Idx → EReal) := by
  obtain ⟨-, -, -, -, -, -, -, -, ⟨e0, e1⟩, -⟩ := idx_facts t
  funext h
  show (iblk m c 8 t : Vec Ideal S1x256 .f32) (ix2 (0 : Fin 1) h) = _
  unfold iblk
  rw [View.read_apply]
  show (V m c main_v3 : S1x256.Idx → EReal) _ = _
  rw [bmu_entry]
  refine Eq.trans (congrArg _ ?_) (shapeCast_a_1a_apply (m ((c : Thread nD τ).loc main_arg8) : S256.Idx → EReal) shapeCasts_S256_S1x256 (0 : Fin 1) h)
  funext a
  apply Fin.ext
  match a with
  | ⟨0, _⟩ => show win0_8.index t (0 : Fin 2) * 1 + 1 * 0 = 0; rw [e0]
  | ⟨1, _⟩ => show win0_8.index t (1 : Fin 2) * 256 + 1 * h.val = h.val; rw [e1]; omega

end Cert.KernelIdeal.Blocks

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.LibUnitCasts.lean ====
/-
  Blocks with two leading unit axes: two shape casts read at an index, for any extents.

  A pipelined block of a rank-4 array cut one row-block of one head at a time has shape [1, 1, a, b]; a body views it as
  the matrix [a, b] and stores a matrix back as such a block. Both casts keep the row-major position, and the two unit
  coordinates contribute nothing to it, so each is read here at an index built from its coordinates.
-/
import Idealize.ShloMosaic.Lib.ValueIdx
import Idealize.ShloMosaic.Lib.Pipeline.Value

namespace Cert.LibUnitCasts

open Idealize.ShloMosaic Idealize.ShloMosaic.ValueIdx

variable {α : Type}

/-- A block [1, 1, a, b] viewed as the matrix [a, b] reads, at (i, j), the block at (0, 0, i, j). -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] stored as a block [1, 1, a, b] reads, at (u, v, i, j), the matrix at (i, j). -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Cert.LibUnitCasts
-- ==== Proof.BodyRows.lean ====
/-
  The kernel's body, one block row at a time: each stored value of the body, read at an index of its block, is the
  corresponding head of the network at that row of the block of x, with the weights as the body loads them whole and
  each bias as the one row of its [1, n] block.
-/
import proofs.«161741_j6485400617753_1_alg».proof.Proof.Gen.KernelIdeal.Skeleton
import proofs.«161741_j6485400617753_1_alg».proof.Proof.Spec
import proofs.«161741_j6485400617753_1_alg».proof.Proof.LibPlainDot
import proofs.«161741_j6485400617753_1_alg».proof.Proof.LibColumns
import proofs.«161741_j6485400617753_1_alg».proof.Proof.LibUnitCasts
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyValue

open Cert.KernelIdeal Cert.KernelIdeal.Gen Idealize.ShloMosaic Idealize.ShloMosaic.ValueIdx Cert.Mdn

/-- A [1, b] bias block, cast to its own shape and broadcast over a rows, reads its one row at every row. -/
private theorem bias_at {a b : ℕ} (v : FVec Ideal ⟨2, ![1, b]⟩ .f32) (hc : (⟨2, ![1, b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = rowAt v (0 : Fin 1) c := by
  rw [shapeCast_self]
  exact broadcastTo_1b_ab_apply v hb p c

/-- The hidden layer the body computes, at row p and unit h of the block. -/
private theorem hidden_at (x0 : Vec Ideal S512x32 .f32) (x1 : Vec Ideal S32x256 .f32) (x2 : Vec Ideal S1x256 .f32)
    (p : Fin 512) (h : Fin 256) :
    k0_pay3 (F := Ideal) x0 x1 x2 (ix2 p h) = hidden (rowAt x0 p) (mat x1) (rowAt x2 (0 : Fin 1)) h := by
  unfold k0_pay3
  show Ideal.tanh (_ + _) = Ideal.tanh (_ + _)
  refine congrArg Ideal.tanh ?_
  refine congrArg₂ (· + ·) ?_ ?_
  · exact Cert.PlainDot.matmul_zero_apply _ rfl rfl rfl rfl rfl rfl none x0 x1 p h
  · exact bias_at x2 _ _ p h

/-- An affine layer of the body at row p and column q: the product of a [512, 256] operand, known at row p, with the
    weights, into a zero accumulator, plus the bias block's one row. -/
private theorem affine_at {N : ℕ} (z : FVec Ideal ⟨2, ![512, 256]⟩ .f32) (W : FVec Ideal ⟨2, ![256, N]⟩ .f32)
    (b : FVec Ideal ⟨2, ![1, N]⟩ .f32) (d : DotDims ⟨2, ![512, 256]⟩ ⟨2, ![256, N]⟩ ⟨2, ![512, N]⟩)
    (h1 : d.lhsContracting = [1]) (h2 : d.rhsContracting = [0]) (h3 : d.lhsNonContracting = [0])
    (h4 : d.rhsNonContracting = [1]) (h5 : d.lhsBatch = []) (h6 : d.rhsBatch = [])
    (hc : (⟨2, ![1, N]⟩ : Shape).ShapeCasts ⟨2, ![1, N]⟩) (hb : (⟨2, ![1, N]⟩ : Shape).Broadcasts ⟨2, ![512, N]⟩)
    (p : Fin 512) (q : Fin N) (Z : Fin 256 → EReal) (hz : ∀ h : Fin 256, z (ix2 p h) = Z h) :
    addf (matmul d none z W (constant (F := Ideal) ⟨2, ![512, N]⟩ .f32 0x00000000#32))
        (broadcastTo ⟨2, ![512, N]⟩ (shapeCast ⟨2, ![1, N]⟩ b hc) hb) (ix2 p q)
      = affine Z (mat W) (rowAt b (0 : Fin 1)) q := by
  show _ + _ = _ + _
  refine congrArg₂ (· + ·) ?_ ?_
  · refine (Cert.PlainDot.matmul_zero_apply d h1 h2 h3 h4 h5 h6 none z W p q).trans ?_
    exact Finset.sum_congr rfl fun k _ => congrArg (· * W (ix2 k q)) (hz k)
  · exact bias_at b hc hb p q

/-- A row of 256 read as a 16 x 16 table: entry (k, i) sits at position 16 k + i. -/
private theorem table_at {α : Type} {a : ℕ} (x : (⟨2, ![a, 256]⟩ : Shape).Idx → α)
    (h : (⟨2, ![a, 256]⟩ : Shape).ShapeCasts ⟨3, ![a, 16, 16]⟩) (p : Fin a) (k i : Fin 16) :
    shapeCast ⟨3, ![a, 16, 16]⟩ x h (ix3 p k i) = x (ix2 p (flat k i)) :=
  shapeCast_apply x h _ _ (by
    rw [Shape.rowMajor_val_two, Shape.rowMajor_val_three]
    show p.val * 256 + (k.val * 16 + i.val) = (p.val * 16 + k.val) * 16 + i.val
    omega)

/-- The reduced index p with column k put back is (p, k). -/
private theorem lift_col {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A vector [a] viewed as a column and spread over b columns reads, at (p, c), the vector at p. -/
private theorem column_at {α : Type} {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (Cert.LibColumns.broadcastTo_a1_ab_apply _ hb p c).trans (Cert.LibColumns.shapeCast_a_a1_apply x hc p (0 : Fin 1))

/-- The maximum over the 16 columns, from minus infinity, at row p: the fold of max over the row's entries. -/
private theorem foldMax_at (src : FVec Ideal S512x16 .f32) (h : S512x16.Reduces [1] S512) (hφ : FKind.Formats .f32)
    (hacc : (0xFF800000#32 : BitVec 32) = FKind.maximumf.neutral .f32 hφ) (p : Fin 512) (l : Fin 16 → EReal)
    (hl : ∀ q : Fin 16, src (ix2 p q) = l q) :
    multiReduction .maximumf [1] S512 src 0xFF800000#32 h hφ hacc (ix1 p)
      = (Finset.univ : Finset (Fin 16)).fold max negInf l := by
  refine (Ideal.multiReduction_maximumf_single src 0xFF800000#32 h hφ hacc (ix1 p)).trans ?_
  have hf : (src ∘ h.lift (ix1 p)) = l := funext fun k => (congrArg src (lift_col h p k)).trans (hl _)
  exact congrArg (fun f => Finset.fold max negInf f (Finset.univ : Finset (Fin 16))) hf

/-- The sum over the 16 columns at row p: the sum of the row's entries. -/
private theorem sum_at (src : FVec Ideal S512x16 .f32) (h : S512x16.Reduces [1] S512) (hφ : FKind.Formats .f32)
    (hacc : (0x00000000#32 : BitVec 32) = FKind.add.neutral .f32 hφ) (p : Fin 512) (E : Fin 16 → EReal)
    (hE : ∀ q : Fin 16, src (ix2 p q) = E q) :
    multiReduction .add [1] S512 src 0x00000000#32 h hφ hacc (ix1 p) = ∑ q : Fin 16, E q := by
  refine (Ideal.multiReduction_add_single src 0x00000000#32 h hφ hacc (ix1 p)).trans ?_
  exact Finset.sum_congr rfl fun k _ => (congrArg src (lift_col h p k)).trans (hE _)

/-- The exponential of the logits shifted by their row's maximum, at (p, q). -/
private theorem shift_at (v : FVec Ideal S512x16 .f32) (h : S512x16.Reduces [1] S512) (hφ : FKind.Formats .f32)
    (hacc : (0xFF800000#32 : BitVec 32) = FKind.maximumf.neutral .f32 hφ) (hc : S512.ShapeCasts S512x1)
    (hb : S512x1.Broadcasts S512x16) (p : Fin 512) (q : Fin 16) (l : Fin 16 → EReal)
    (hl : ∀ q' : Fin 16, v (ix2 p q') = l q') :
    exp (subf v (broadcastTo S512x16 (shapeCast S512x1
        (maximumf (broadcast S512 (Scalar.ofBits (F := Ideal) .f32 0xFF800000#32))
          (multiReduction .maximumf [1] S512 v 0xFF800000#32 h hφ hacc)) hc) hb)) (ix2 p q)
      = Ideal.exp (l q - rowMax l) := by
  show Ideal.exp (_ - _) = Ideal.exp (_ - _)
  refine congrArg Ideal.exp (congrArg₂ (· - ·) (hl q) ?_)
  refine (column_at _ hc hb p q).trans ?_
  show max negInf _ = max negInf _
  exact congrArg (max negInf) (foldMax_at v h hφ hacc p l hl)

/-- A [512, 16] array divided by its row sums, at (p, q). -/
private theorem normalize_at (e : FVec Ideal S512x16 .f32) (h : S512x16.Reduces [1] S512) (hφ : FKind.Formats .f32)
    (hacc : (0x00000000#32 : BitVec 32) = FKind.add.neutral .f32 hφ) (hc : S512.ShapeCasts S512x1)
    (hb : S512x1.Broadcasts S512x16) (p : Fin 512) (q : Fin 16) (E : Fin 16 → EReal)
    (hE : ∀ q' : Fin 16, e (ix2 p q') = E q') :
    divf e (broadcastTo S512x16 (shapeCast S512x1 (multiReduction .add [1] S512 e 0x00000000#32 h hφ hacc) hc) hb) (ix2 p q)
      = Ideal.div (E q) (∑ q' : Fin 16, E q') := by
  show Ideal.div _ _ = Ideal.div _ _
  refine congrArg₂ Ideal.div (hE q) ?_
  refine (column_at _ hc hb p q).trans ?_
  exact sum_at e h hφ hacc p E hE

/-- The mixture weights the body stores, at row p and component q of the block. -/
theorem pi_block (x0 : Vec Ideal S512x32 .f32) (x1 : Vec Ideal S32x256 .f32) (x2 : Vec Ideal S1x256 .f32)
    (x3 : Vec Ideal S256x16 .f32) (x4 : Vec Ideal S1x16 .f32) (p : Fin 512) (q : Fin 16) :
    k0_pay4 (F := Ideal) x0 x1 x2 x3 x4 (ix2 p q)
      = piRow (rowAt x0 p) (mat x1) (rowAt x2 (0 : Fin 1)) (mat x3) (rowAt x4 (0 : Fin 1)) q := by
  unfold k0_pay4
  refine (normalize_at _ _ _ _ _ _ p q
    (fun q' => Ideal.exp (affine (hidden (rowAt x0 p) (mat x1) (rowAt x2 (0 : Fin 1))) (mat x3) (rowAt x4 (0 : Fin 1)) q'
      - rowMax (affine (hidden (rowAt x0 p) (mat x1) (rowAt x2 (0 : Fin 1))) (mat x3) (rowAt x4 (0 : Fin 1)))))
    fun q' => shift_at _ _ _ _ _ _ p q' _ fun q'' =>
      affine_at (k0_pay3 (F := Ideal) x0 x1 x2) x3 x4 _ rfl rfl rfl rfl rfl rfl _ _ p q'' _ (hidden_at x0 x1 x2 p)).trans ?_
  rfl

/-- A [a, b, c] array given a trailing unit axis and spread along it reads, at (p, k, i, j), the array at (p, k, i). -/
private theorem spread_last {α : Type} {a b c d : ℕ} (x : (⟨3, ![a, b, c]⟩ : Shape).Idx → α)
    (hc : (⟨3, ![a, b, c]⟩ : Shape).ShapeCasts ⟨4, ![a, b, c, 1]⟩)
    (hb : (⟨4, ![a, b, c, 1]⟩ : Shape).Broadcasts ⟨4, ![a, b, c, d]⟩) (p : Fin a) (k : Fin b) (i : Fin c) (j : Fin d) :
    broadcastTo ⟨4, ![a, b, c, d]⟩ (shapeCast ⟨4, ![a, b, c, 1]⟩ x hc) hb (ix4 p k i j) = x (ix3 p k i) := by
  refine (broadcastTo_apply _ hb (ix4 p k i j) (ix4 p k i (0 : Fin 1)) fun ax => ?_).trans ?_
  · match ax with
    | ⟨0, _⟩ =>
      show p.val = if a = 1 then 0 else p.val
      split
      · have := p.isLt; omega
      · rfl
    | ⟨1, _⟩ =>
      show k.val = if b = 1 then 0 else k.val
      split
      · have := k.isLt; omega
      · rfl
    | ⟨2, _⟩ =>
      show i.val = if c = 1 then 0 else i.val
      split
      · have := i.isLt; omega
      · rfl
    | ⟨3, _⟩ => rfl
  · exact shapeCast_apply x hc _ _ (by
      rw [Shape.rowMajor_val_three, Shape.rowMajor_val_four]
      show (p.val * b + k.val) * c + i.val = ((p.val * b + k.val) * c + i.val) * 1 + 0
      omega)

/-- A [c, d] matrix given two leading unit axes and spread along them reads, at (p, k, i, j), the matrix at (i, j). -/
private theorem spread_lead {α : Type} {a b c d : ℕ} (y : (⟨2, ![c, d]⟩ : Shape).Idx → α)
    (hc : (⟨2, ![c, d]⟩ : Shape).ShapeCasts ⟨4, ![1, 1, c, d]⟩)
    (hb : (⟨4, ![1, 1, c, d]⟩ : Shape).Broadcasts ⟨4, ![a, b, c, d]⟩) (p : Fin a) (k : Fin b) (i : Fin c) (j : Fin d) :
    broadcastTo ⟨4, ![a, b, c, d]⟩ (shapeCast ⟨4, ![1, 1, c, d]⟩ y hc) hb (ix4 p k i j) = y (ix2 i j) := by
  refine (broadcastTo_apply _ hb (ix4 p k i j) (ix4 (0 : Fin 1) (0 : Fin 1) i j) fun ax => ?_).trans ?_
  · match ax with
    | ⟨0, _⟩ => rfl
    | ⟨1, _⟩ => rfl
    | ⟨2, _⟩ =>
      show i.val = if c = 1 then 0 else i.val
      split
      · have := i.isLt; omega
      · rfl
    | ⟨3, _⟩ =>
      show j.val = if d = 1 then 0 else j.val
      split
      · have := j.isLt; omega
      · rfl
  · exact Cert.LibUnitCasts.cast_ab_11ab y hc (0 : Fin 1) (0 : Fin 1) i j

/-- Comparing the row number with the column number, as 32-bit words, gives the bit 1 on the diagonal and 0 off it. -/
private theorem eye_bit : ∀ i j : Fin 16,
    IntOp.cmpi .eq (IntOp.addi (BitVec.ofNat 32 (0 * 16 + i.val)) 0#32) (BitVec.ofNat 32 (0 * 16 + j.val))
      = if i = j then 1#1 else 0#1 := by decide

/-- The matrix the body builds from the two coordinate tables is the identity matrix of order 16. -/
private theorem eye_at (h0 : S16x16.Iotas .tc 32 [0]) (h1 : S16x16.Iotas .tc 32 [1]) (hlt : 1 < 32) (i j : Fin 16) :
    (sitofp .f32 (extui 32 (cmpi .eq (addi (iota .tc S16x16 32 [0] h0) (broadcast S16x16 0#32)) (iota .tc S16x16 32 [1] h1)) hlt)
      : FVec Ideal S16x16 .f32) (ix2 i j) = eye i j := by
  show (((BitVec.setWidth 32 (IntOp.cmpi .eq (IntOp.addi (BitVec.ofNat 32 (0 * 16 + i.val)) 0#32)
    (BitVec.ofNat 32 (0 * 16 + j.val)))).toInt : ℝ) : EReal) = _
  rw [eye_bit i j]
  unfold eye
  by_cases h : i = j
  · rw [if_pos h, if_pos h]
    show (((1 : ℤ) : ℝ) : EReal) = 1
    rw [Int.cast_one, EReal.coe_one]
  · rw [if_neg h, if_neg h]
    show (((0 : ℤ) : ℝ) : EReal) = 0
    rw [Int.cast_zero, EReal.coe_zero]

/-- The scales the body computes, at row p, component k, coordinate i. -/
private theorem scale_at (x0 : Vec Ideal S512x32 .f32) (x1 : Vec Ideal S32x256 .f32) (x2 : Vec Ideal S1x256 .f32)
    (x5 : Vec Ideal S256x256 .f32) (x6 : Vec Ideal S1x256 .f32) (p : Fin 512) (k i : Fin 16) :
    k0_pay5 (F := Ideal) x0 x1 x2 x5 x6 (ix3 p k i)
      = Ideal.exp (affine (hidden (rowAt x0 p) (mat x1) (rowAt x2 (0 : Fin 1))) (mat x5) (rowAt x6 (0 : Fin 1)) (flat k i)) := by
  unfold k0_pay5
  refine (table_at _ _ p k i).trans ?_
  show Ideal.exp _ = Ideal.exp _
  refine congrArg Ideal.exp ?_
  exact affine_at (k0_pay3 (F := Ideal) x0 x1 x2) x5 x6 _ rfl rfl rfl rfl rfl rfl _ _ p (flat k i) _
    (hidden_at x0 x1 x2 p)

/-- The scale matrices the body stores, at row p, component k, entry (i, j). -/
theorem sigma_block (x0 : Vec Ideal S512x32 .f32) (x1 : Vec Ideal S32x256 .f32) (x2 : Vec Ideal S1x256 .f32)
    (x5 : Vec Ideal S256x256 .f32) (x6 : Vec Ideal S1x256 .f32) (p : Fin 512) (k i j : Fin 16) :
    k0_pay1 (F := Ideal) (k0_pay5 (F := Ideal) x0 x1 x2 x5 x6) (iota .tc S16x16 32 [0] iota_S16x16_d0_w32)
        (iota .tc S16x16 32 [1] iota_S16x16_d1_w32) (ix4 p k i j)
      = sigmaRow (rowAt x0 p) (mat x1) (rowAt x2 (0 : Fin 1)) (mat x5) (rowAt x6 (0 : Fin 1)) k i j := by
  unfold k0_pay1
  show _ * _ = _ * _
  refine congrArg₂ (· * ·) ?_ ?_
  · refine (spread_last _ _ _ p k i j).trans ?_
    exact scale_at x0 x1 x2 x5 x6 p k i
  · refine (spread_lead _ _ _ p k i j).trans ?_
    exact eye_at _ _ _ i j

/-- The means the body stores, at row p, component k, coordinate i. -/
theorem mu_block (x0 : Vec Ideal S512x32 .f32) (x1 : Vec Ideal S32x256 .f32) (x2 : Vec Ideal S1x256 .f32)
    (x7 : Vec Ideal S256x256 .f32) (x8 : Vec Ideal S1x256 .f32) (p : Fin 512) (k i : Fin 16) :
    k0_pay2 (F := Ideal) (k0_pay3 (F := Ideal) x0 x1 x2) x7 x8 (ix3 p k i)
      = muRow (rowAt x0 p) (mat x1) (rowAt x2 (0 : Fin 1)) (mat x7) (rowAt x8 (0 : Fin 1)) k i := by
  unfold k0_pay2
  refine (table_at _ _ p k i).trans ?_
  exact affine_at (k0_pay3 (F := Ideal) x0 x1 x2) x7 x8 _ rfl rfl rfl rfl rfl rfl _ _ p (flat k i) _
    (hidden_at x0 x1 x2 p)

end Cert.KernelIdeal.BodyValue

end
-- ==== Proof.Whole.lean ====
/-
  From blocks to the whole batch: after the kernel has run, its three result arrays hold the three heads of the
  network of the arguments as launched.

  Grid point t writes back rows 512 t … 512 t + 511 of each result. By the body's value at an index of a block
  (the row lemmas of the body) and the blocks it was handed (rows of x, the weights whole, each bias as a row), what
  point t writes back is exactly those rows of the head computed over the whole batch; and every row r of the batch
  lies in the block of point r / 512. So each result array ends at the head over the whole batch.
-/
import proofs.«161741_j6485400617753_1_alg».proof.Proof.Blocks
import proofs.«161741_j6485400617753_1_alg».proof.Proof.BodyRows

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Blocks Cert.KernelIdeal.BodyValue
open Idealize.ShloMosaic.ValueIdx Cert.Mdn

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The mixture weights of the whole batch, of the arguments as launched. -/
abbrev piOf (c : Dev nD) : S65536x16.Idx → EReal :=
  piAll (m ((c : Thread nD τ).loc main_arg0)) (m ((c : Thread nD τ).loc main_arg1)) (m ((c : Thread nD τ).loc main_arg2))
    (m ((c : Thread nD τ).loc main_arg3)) (m ((c : Thread nD τ).loc main_arg4))

/-- The scale matrices of the whole batch, of the arguments as launched. -/
abbrev sigmaOf (c : Dev nD) : S65536x16x16x16.Idx → EReal :=
  sigmaAll (m ((c : Thread nD τ).loc main_arg0)) (m ((c : Thread nD τ).loc main_arg1)) (m ((c : Thread nD τ).loc main_arg2))
    (m ((c : Thread nD τ).loc main_arg5)) (m ((c : Thread nD τ).loc main_arg6))

/-- The means of the whole batch, of the arguments as launched. -/
abbrev muOf (c : Dev nD) : S65536x16x16.Idx → EReal :=
  muAll (m ((c : Thread nD τ).loc main_arg0)) (m ((c : Thread nD τ).loc main_arg1)) (m ((c : Thread nD τ).loc main_arg2))
    (m ((c : Thread nD τ).loc main_arg7)) (m ((c : Thread nD τ).loc main_arg8))

/-! ## The mixture weights -/

/-- What point t writes back to the first result is rows 512 t … 512 t + 511 of the mixture weights. -/
theorem flushed9_eq (c : Dev nD) (t : Fin cfg0.N) :
    (dats m 0 c).flushed 9 t = ((cfg0.win 9).blk t).view.read (Elt Ideal) (piOf m c) := by
  obtain ⟨-, -, -, -, -, -, -, -, -, ⟨e0, e1⟩, -⟩ := idx_facts t
  rw [Value.flushed9]
  unfold out0_9
  rw [View.canon_unit_zero hz2]
  simp only [View.ld_unit_zero (S := S512x32) hz2, View.ld_unit_zero (S := S32x256) hz2, View.ld_unit_zero (S := S1x256) hz2,
    View.ld_unit_zero (S := S256x16) hz2, View.ld_unit_zero (S := S1x16) hz2]
  funext j
  obtain ⟨p, q, rfl⟩ : ∃ (p : Fin 512) (q : Fin 16), j = ix2 p q := ⟨j 0, j 1, eq_ix2 j⟩
  have hN : cfg0.N = 128 := N_0
  have hr : t.val * 512 + p.val < 65536 := by have := t.isLt; have := p.isLt; omega
  refine (pi_block (iblk m c 0 t) (iblk m c 1 t) (iblk m c 2 t) (iblk m c 3 t) (iblk m c 4 t) p q).trans ?_
  rw [x_rows m c t p ⟨_, hr⟩ rfl, w1_whole, b1_row, wpi_whole, bpi_row, View.read_apply]
  refine (piAll_ix2 _ _ _ _ _ ⟨_, hr⟩ q).symm.trans (congrArg (piOf m c) ?_)
  funext a
  apply Fin.ext
  match a with
  | ⟨0, _⟩ => show t.val * 512 + p.val = win0_9.index t (0 : Fin 2) * 512 + 1 * p.val; rw [e0]; omega
  | ⟨1, _⟩ => show q.val = win0_9.index t (1 : Fin 2) * 16 + 1 * q.val; rw [e1]; omega

/-- An index is in point t's block of the first result iff each coordinate is in the block's range on its axis. -/
theorem mem_blk9 (t : Fin cfg0.N) (i : S65536x16.Idx) :
    i ∈ ((cfg0.win 9).blk t).view.set ↔ ∀ a : Fin 2, win0_9.index t a * S512x16.size a ≤ (i a).val
      ∧ (i a).val < win0_9.index t a * S512x16.size a + S512x16.size a := by
  show i ∈ ((View.whole main_v4_0).slice (win0_9.rect t)).set ↔ _
  rw [View.set_slice_whole, Rect.mem_set_unit]
  exact Iff.rfl

/-- Row r of the first result is in the block of point r / 512. -/
theorem cover9 (i : S65536x16.Idx) : ∃ t : Fin cfg0.N, (cfg0.win 9).flush t = true ∧ i ∈ ((cfg0.win 9).blk t).view.set := by
  have hN : cfg0.N = 128 := N_0
  have h0 : (i 0).val < 65536 := (i 0).isLt
  have h1 : (i 1).val < 16 := (i 1).isLt
  obtain ⟨t, ht⟩ : ∃ t : Fin cfg0.N, t.val = (i 0).val / 512 := ⟨⟨(i 0).val / 512, by rw [hN]; omega⟩, rfl⟩
  obtain ⟨-, -, -, -, -, -, -, -, -, ⟨e0, e1⟩, -⟩ := idx_facts t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 16 ≤ (i 1).val ∧ (i 1).val < win0_9.index t (1 : Fin 2) * 16 + 16
    rw [e1]; omega

/-- After the run the first result holds the mixture weights of the whole batch. -/
theorem final9 (c : Dev nD) : (dats m 0 c).arrAt 9 cfg0.N = piOf m c :=
  (dats m 0 c).arrAt_eq_of_cover 9 (piOf m c) (fun t _ => flushed9_eq m c t) cover9

/-! ## The scale matrices -/

/-- What point t writes back to the second result is rows 512 t … 512 t + 511 of the scale matrices. -/
theorem flushed10_eq (c : Dev nD) (t : Fin cfg0.N) :
    (dats m 0 c).flushed 10 t = ((cfg0.win 10).blk t).view.read (Elt Ideal) (sigmaOf m c) := by
  obtain ⟨-, -, -, -, -, -, -, -, -, -, ⟨e0, e1, e2, e3⟩, -⟩ := idx_facts t
  rw [Value.flushed10]
  unfold out0_10
  rw [View.canon_unit_zero hz4]
  simp only [View.ld_unit_zero (S := S512x32) hz2, View.ld_unit_zero (S := S32x256) hz2, View.ld_unit_zero (S := S1x256) hz2,
    View.ld_unit_zero (S := S256x256) hz2]
  funext y
  obtain ⟨p, k, i, j, rfl⟩ : ∃ (p : Fin 512) (k i j : Fin 16), y = ix4 p k i j := ⟨y 0, y 1, y 2, y 3, eq_ix4 y⟩
  have hN : cfg0.N = 128 := N_0
  have hr : t.val * 512 + p.val < 65536 := by have := t.isLt; have := p.isLt; omega
  refine (sigma_block (iblk m c 0 t) (iblk m c 1 t) (iblk m c 2 t) (iblk m c 5 t) (iblk m c 6 t) p k i j).trans ?_
  rw [x_rows m c t p ⟨_, hr⟩ rfl, w1_whole, b1_row, wsig_whole, bsig_row, View.read_apply]
  refine (sigmaAll_ix4 _ _ _ _ _ ⟨_, hr⟩ k i j).symm.trans (congrArg (sigmaOf m c) ?_)
  funext a
  apply Fin.ext
  match a with
  | ⟨0, _⟩ => show t.val * 512 + p.val = win0_10.index t (0 : Fin 4) * 512 + 1 * p.val; rw [e0]; omega
  | ⟨1, _⟩ => show k.val = win0_10.index t (1 : Fin 4) * 16 + 1 * k.val; rw [e1]; omega
  | ⟨2, _⟩ => show i.val = win0_10.index t (2 : Fin 4) * 16 + 1 * i.val; rw [e2]; omega
  | ⟨3, _⟩ => show j.val = win0_10.index t (3 : Fin 4) * 16 + 1 * j.val; rw [e3]; omega

theorem mem_blk10 (t : Fin cfg0.N) (i : S65536x16x16x16.Idx) :
    i ∈ ((cfg0.win 10).blk t).view.set ↔ ∀ a : Fin 4, win0_10.index t a * S512x16x16x16.size a ≤ (i a).val
      ∧ (i a).val < win0_10.index t a * S512x16x16x16.size a + S512x16x16x16.size a := by
  show i ∈ ((View.whole main_v4_1).slice (win0_10.rect t)).set ↔ _
  rw [View.set_slice_whole, Rect.mem_set_unit]
  exact Iff.rfl

theorem cover10 (i : S65536x16x16x16.Idx) :
    ∃ t : Fin cfg0.N, (cfg0.win 10).flush t = true ∧ i ∈ ((cfg0.win 10).blk t).view.set := by
  have hN : cfg0.N = 128 := N_0
  have h0 : (i 0).val < 65536 := (i 0).isLt
  have h1 : (i 1).val < 16 := (i 1).isLt
  have h2 : (i 2).val < 16 := (i 2).isLt
  have h3 : (i 3).val < 16 := (i 3).isLt
  obtain ⟨t, ht⟩ : ∃ t : Fin cfg0.N, t.val = (i 0).val / 512 := ⟨⟨(i 0).val / 512, by rw [hN]; omega⟩, rfl⟩
  obtain ⟨-, -, -, -, -, -, -, -, -, -, ⟨e0, e1, e2, e3⟩, -⟩ := idx_facts t
  refine ⟨t, flush0_10 t, ?_⟩
  rw [mem_blk10]
  intro a
  match a with
  | ⟨0, _⟩ =>
    show win0_10.index t (0 : Fin 4) * 512 ≤ (i 0).val ∧ (i 0).val < win0_10.index t (0 : Fin 4) * 512 + 512
    rw [e0, ht]; omega
  | ⟨1, _⟩ =>
    show win0_10.index t (1 : Fin 4) * 16 ≤ (i 1).val ∧ (i 1).val < win0_10.index t (1 : Fin 4) * 16 + 16
    rw [e1]; omega
  | ⟨2, _⟩ =>
    show win0_10.index t (2 : Fin 4) * 16 ≤ (i 2).val ∧ (i 2).val < win0_10.index t (2 : Fin 4) * 16 + 16
    rw [e2]; omega
  | ⟨3, _⟩ =>
    show win0_10.index t (3 : Fin 4) * 16 ≤ (i 3).val ∧ (i 3).val < win0_10.index t (3 : Fin 4) * 16 + 16
    rw [e3]; omega

/-- After the run the second result holds the scale matrices of the whole batch. -/
theorem final10 (c : Dev nD) : (dats m 0 c).arrAt 10 cfg0.N = sigmaOf m c :=
  (dats m 0 c).arrAt_eq_of_cover 10 (sigmaOf m c) (fun t _ => flushed10_eq m c t) cover10

/-! ## The means -/

/-- What point t writes back to the third result is rows 512 t … 512 t + 511 of the means. -/
theorem flushed11_eq (c : Dev nD) (t : Fin cfg0.N) :
    (dats m 0 c).flushed 11 t = ((cfg0.win 11).blk t).view.read (Elt Ideal) (muOf m c) := by
  obtain ⟨-, -, -, -, -, -, -, -, -, -, -, ⟨e0, e1, e2⟩⟩ := idx_facts t
  rw [Value.flushed11]
  unfold out0_11
  rw [View.canon_unit_zero hz3]
  simp only [View.ld_unit_zero (S := S512x32) hz2, View.ld_unit_zero (S := S32x256) hz2, View.ld_unit_zero (S := S1x256) hz2,
    View.ld_unit_zero (S := S256x256) hz2]
  funext y
  obtain ⟨p, k, i, rfl⟩ : ∃ (p : Fin 512) (k i : Fin 16), y = ix3 p k i := ⟨y 0, y 1, y 2, eq_ix3 y⟩
  have hN : cfg0.N = 128 := N_0
  have hr : t.val * 512 + p.val < 65536 := by have := t.isLt; have := p.isLt; omega
  refine (mu_block (iblk m c 0 t) (iblk m c 1 t) (iblk m c 2 t) (iblk m c 7 t) (iblk m c 8 t) p k i).trans ?_
  rw [x_rows m c t p ⟨_, hr⟩ rfl, w1_whole, b1_row, wmu_whole, bmu_row, View.read_apply]
  refine (muAll_ix3 _ _ _ _ _ ⟨_, hr⟩ k i).symm.trans (congrArg (muOf m c) ?_)
  funext a
  apply Fin.ext
  match a with
  | ⟨0, _⟩ => show t.val * 512 + p.val = win0_11.index t (0 : Fin 3) * 512 + 1 * p.val; rw [e0]; omega
  | ⟨1, _⟩ => show k.val = win0_11.index t (1 : Fin 3) * 16 + 1 * k.val; rw [e1]; omega
  | ⟨2, _⟩ => show i.val = win0_11.index t (2 : Fin 3) * 16 + 1 * i.val; rw [e2]; omega

theorem mem_blk11 (t : Fin cfg0.N) (i : S65536x16x16.Idx) :
    i ∈ ((cfg0.win 11).blk t).view.set ↔ ∀ a : Fin 3, win0_11.index t a * S512x16x16.size a ≤ (i a).val
      ∧ (i a).val < win0_11.index t a * S512x16x16.size a + S512x16x16.size a := by
  show i ∈ ((View.whole main_v4_2).slice (win0_11.rect t)).set ↔ _
  rw [View.set_slice_whole, Rect.mem_set_unit]
  exact Iff.rfl

theorem cover11 (i : S65536x16x16.Idx) :
    ∃ t : Fin cfg0.N, (cfg0.win 11).flush t = true ∧ i ∈ ((cfg0.win 11).blk t).view.set := by
  have hN : cfg0.N = 128 := N_0
  have h0 : (i 0).val < 65536 := (i 0).isLt
  have h1 : (i 1).val < 16 := (i 1).isLt
  have h2 : (i 2).val < 16 := (i 2).isLt
  obtain ⟨t, ht⟩ : ∃ t : Fin cfg0.N, t.val = (i 0).val / 512 := ⟨⟨(i 0).val / 512, by rw [hN]; omega⟩, rfl⟩
  obtain ⟨-, -, -, -, -, -, -, -, -, -, -, ⟨e0, e1, e2⟩⟩ := idx_facts t
  refine ⟨t, flush0_11 t, ?_⟩
  rw [mem_blk11]
  intro a
  match a with
  | ⟨0, _⟩ =>
    show win0_11.index t (0 : Fin 3) * 512 ≤ (i 0).val ∧ (i 0).val < win0_11.index t (0 : Fin 3) * 512 + 512
    rw [e0, ht]; omega
  | ⟨1, _⟩ =>
    show win0_11.index t (1 : Fin 3) * 16 ≤ (i 1).val ∧ (i 1).val < win0_11.index t (1 : Fin 3) * 16 + 16
    rw [e1]; omega
  | ⟨2, _⟩ =>
    show win0_11.index t (2 : Fin 3) * 16 ≤ (i 2).val ∧ (i 2).val < win0_11.index t (2 : Fin 3) * 16 + 16
    rw [e2]; omega

/-- After the run the third result holds the means of the whole batch. -/
theorem final11 (c : Dev nD) : (dats m 0 c).arrAt 11 cfg0.N = muOf m c :=
  (dats m 0 c).arrAt_eq_of_cover 11 (muOf m c) (fun t _ => flushed11_eq m c t) cover11

/-! ## The run -/

/-- Every weakly fair execution of the program ends with the three results at the three heads over the whole batch, of
    the arguments as launched, and the arguments unchanged. -/
theorem run : θ_run defs (onTc (τ := τ) (main (F := Ideal))) ⟨m, fun _ => 0, ρ⟩ fun r => ∀ c : Dev nD,
      r.2.mem ((c : Thread nD τ).loc main_v4_0) = piOf m c
      ∧ r.2.mem ((c : Thread nD τ).loc main_v4_1) = sigmaOf m c
      ∧ r.2.mem ((c : Thread nD τ).loc main_v4_2) = muOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c),
      (h c).2.2.1.trans (final11 m c), (h c).2.2.2⟩)
    (Value.run_blocks m ρ)

end Cert.KernelIdeal.Whole

end
-- ==== Proof.RefRows.lean ====
/-
  The reference's three results, read index by index, are the three heads of the network over the whole batch.
-/
import proofs.«161741_j6485400617753_1_alg».proof.Proof.Gen.ReferenceIdeal.Read
import proofs.«161741_j6485400617753_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx Cert.Mdn

/-- The hidden layer at row r, unit h: tanh of the row times the first weight matrix plus the first bias. -/
private theorem hidden_at (x0 : (⟨S65536x32, .f32⟩ : BufTy).Contents (Elt Ideal)) (x1 : (⟨S32x256, .f32⟩ : BufTy).Contents (Elt Ideal))
    (x2 : (⟨S256, .f32⟩ : BufTy).Contents (Elt Ideal)) (r : Fin 65536) (h : Fin 256) :
    val_main_v4 (F := Ideal) x0 x1 x2 (ix2 r h) = Mdn.hidden (rowAt x0 r) (mat x1) (vec x2) h := by
  rw [val_main_v4_apply, val_main_v3_apply, val_main_v0_apply, val_main_v2_apply, val_main_v1_apply]
  have el : ∀ k : Fin 32, lidx_main_v0 (ix2 r h) k = ix2 r k := fun k =>
    funext fun a => Fin.ext (by match a with | ⟨0, _⟩ => rfl | ⟨1, _⟩ => rfl)
  have er : ∀ k : Fin 32, ridx_main_v0 (ix2 r h) k = ix2 k h := fun k =>
    funext fun a => Fin.ext (by match a with | ⟨0, _⟩ => rfl | ⟨1, _⟩ => rfl)
  have eb : idx_main_v1 (idx_main_v2 (ix2 r h)) = ix1 h :=
    funext fun a => Fin.ext (by match a with | ⟨0, _⟩ => rfl)
  rw [eb, Ideal.hostUnary_tanh_def, Ideal.addf_def]
  unfold Mdn.hidden Mdn.affine Mdn.rowAt Mdn.mat Mdn.vec
  refine congrArg Ideal.tanh (congrArg (· + x2 (ix1 h)) (Finset.sum_congr rfl fun k _ => ?_))
  rw [el, er]

/-- The logits of the mixture weights at row r: the affine head applied to the hidden layer. -/
private abbrev logits (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) (r : Fin 65536) : Fin 16 → EReal :=
  Mdn.affine (Mdn.hidden (rowAt x0 r) (mat x1) (vec x2)) (mat x3) (vec x4)

private theorem logits_at (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) (r : Fin 65536) (q : Fin 16) :
    val_main_v8 (F := Ideal) x0 x1 x2 x3 x4 (ix2 r q) = logits x0 x1 x2 x3 x4 r q := by
  rw [val_main_v8_apply, val_main_v5_apply, val_main_v7_apply, val_main_v6_apply]
  have el : ∀ k : Fin 256, lidx_main_v5 (ix2 r q) k = ix2 r k := fun k =>
    funext fun a => Fin.ext (by match a with | ⟨0, _⟩ => rfl | ⟨1, _⟩ => rfl)
  have er : ∀ k : Fin 256, ridx_main_v5 (ix2 r q) k = ix2 k q := fun k =>
    funext fun a => Fin.ext (by match a with | ⟨0, _⟩ => rfl | ⟨1, _⟩ => rfl)
  have eb : idx_main_v6 (idx_main_v7 (ix2 r q)) = ix1 q :=
    funext fun a => Fin.ext (by match a with | ⟨0, _⟩ => rfl)
  rw [eb, Ideal.addf_def]
  unfold logits Mdn.affine
  refine congrArg (· + x4 (ix1 q)) (Finset.sum_congr rfl fun k _ => ?_)
  rw [el, er, hidden_at]
  rfl

/-- The reduced axis of a [65536, 16] array is its second one. -/
private theorem reduces_row : S65536x16.Reduces [1] S65536 := by decide

/-- The reduced index r with coordinate k put back on the second axis is (r, k). -/
private theorem lift_row (r : Fin 65536) (k : Fin (S65536x16.size 1)) :
    reduces_row.lift (ix1 r) k = ix2 r (⟨k.val, k.isLt⟩ : Fin 16) := by
  funext c; apply Fin.ext
  match c with
  | ⟨0, _⟩ => rfl
  | ⟨1, _⟩ => rfl

/-- The row's maximum as the program takes it: a fold of max from minus infinity over the 16 logits, then one more
    max with minus infinity. -/
private theorem rowmax_at (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) (r : Fin 65536) :
    val_main_v11 (F := Ideal) x0 x1 x2 x3 x4 (ix1 r) = Mdn.rowMax (logits x0 x1 x2 x3 x4 r) := by
  rw [val_main_v11_apply, val_main_v10_apply, val_main_cst_0_apply, Ideal.maximumf_def, Ideal.ofBits_def]
  unfold Mdn.rowMax
  refine congrArg (max Mdn.negInf) ?_
  unfold val_main_v9
  have hl : ∀ k : Fin 16, val_main_v8 (F := Ideal) x0 x1 x2 x3 x4 (ix2 r k) = logits x0 x1 x2 x3 x4 r k :=
    fun k => logits_at x0 x1 x2 x3 x4 r k
  generalize val_main_v8 (F := Ideal) x0 x1 x2 x3 x4 = y at hl ⊢
  have key := Host.reduce_eq_fold_single (FloatOps.maximumf (F := Ideal) (φ := .f32)) y (val_main_cst (F := Ideal))
    reducesTo_S65536x16_S65536_d1 reduces_row h_S_ (ix1 r)
  refine key.trans ?_
  have hf : (y ∘ reduces_row.lift (ix1 r)) = fun k : Fin 16 => logits x0 x1 x2 x3 x4 r k :=
    funext fun k => (congrArg y (lift_row r k)).trans (hl _)
  exact congrArg (fun f => Finset.fold max Mdn.negInf f (Finset.univ : Finset (Fin 16))) hf

/-- The shifted exponential at (r, q). -/
private theorem expShift_at (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) (r : Fin 65536) (q : Fin 16) :
    val_main_v15 (F := Ideal) x0 x1 x2 x3 x4 (ix2 r q)
      = Ideal.exp (logits x0 x1 x2 x3 x4 r q - Mdn.rowMax (logits x0 x1 x2 x3 x4 r)) := by
  rw [val_main_v15_apply, val_main_v14_apply, val_main_v13_apply, val_main_v12_apply]
  have e : idx_main_v12 (idx_main_v13 (ix2 r q)) = ix1 r :=
    funext fun a => Fin.ext (by match a with | ⟨0, _⟩ => rfl)
  rw [e, rowmax_at, logits_at, Ideal.hostUnary_exp_def, Ideal.subf_def]

/-- The sum of the shifted exponentials of row r. -/
private theorem expSum_at (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) (r : Fin 65536) :
    val_main_v16 (F := Ideal) x0 x1 x2 x3 x4 (ix1 r)
      = ∑ q' : Fin 16, Ideal.exp (logits x0 x1 x2 x3 x4 r q' - Mdn.rowMax (logits x0 x1 x2 x3 x4 r)) := by
  rw [val_main_v16_apply, val_main_cst_1_apply, Ideal.ofBits_def, Ideal.ofBits_zero_f32, zero_add]
  refine Finset.sum_congr rfl fun k _ => ?_
  have e : idx_main_v16 (ix1 r) k = ix2 r k :=
    funext fun a => Fin.ext (by match a with | ⟨0, _⟩ => rfl | ⟨1, _⟩ => rfl)
  rw [e, expShift_at]

/-- The reference's first result is the mixture weights of every row. -/
theorem ref_pi (x0 : (⟨S65536x32, .f32⟩ : BufTy).Contents (Elt Ideal)) (x1 : (⟨S32x256, .f32⟩ : BufTy).Contents (Elt Ideal))
    (x2 : (⟨S256, .f32⟩ : BufTy).Contents (Elt Ideal)) (x3 : (⟨S256x16, .f32⟩ : BufTy).Contents (Elt Ideal))
    (x4 : (⟨S16, .f32⟩ : BufTy).Contents (Elt Ideal)) :
    val_main_v19 (F := Ideal) x0 x1 x2 x3 x4 = piAll x0 x1 x2 x3 x4 := by
  funext i
  obtain ⟨r, q, rfl⟩ : ∃ (r : Fin 65536) (q : Fin 16), i = ix2 r q := ⟨i 0, i 1, eq_ix2 i⟩
  rw [piAll_ix2, val_main_v19_apply, val_main_v18_apply, val_main_v17_apply]
  have e : idx_main_v17 (idx_main_v18 (ix2 r q)) = ix1 r :=
    funext fun a => Fin.ext (by match a with | ⟨0, _⟩ => rfl)
  rw [e, expSum_at, expShift_at, Ideal.hostDivf_def]
  rfl

/-- Row r, component k, coordinate i of a [65536, 16, 16] array sits at row r, position 16 k + i of the [65536, 256]
    array it reshapes: (r·16 + k)·16 + i = r·256 + (16 k + i). Stated for the scales' reshape. -/
private theorem reshape_idx' (r : Fin 65536) (k i : Fin 16) :
    idx_main_v25 (ix3 r k i) = ix2 r (Mdn.flat k i) := by
  funext a
  match a with
  | ⟨0, _⟩ =>
    refine Fin.ext ?_
    show ((r.val * 16 + k.val) * 16 + i.val) / 256 = r.val
    have := k.isLt; have := i.isLt; omega
  | ⟨1, _⟩ =>
    refine Fin.ext ?_
    show ((r.val * 16 + k.val) * 16 + i.val) % 256 = k.val * 16 + i.val
    have := k.isLt; have := i.isLt; omega

/-- The scales' affine head at (r, p). -/
private theorem sigAffine_at (x0 : (⟨S65536x32, .f32⟩ : BufTy).Contents (Elt Ideal)) (x1 : (⟨S32x256, .f32⟩ : BufTy).Contents (Elt Ideal))
    (x2 : (⟨S256, .f32⟩ : BufTy).Contents (Elt Ideal)) (x5 : (⟨S256x256, .f32⟩ : BufTy).Contents (Elt Ideal))
    (x6 : (⟨S256, .f32⟩ : BufTy).Contents (Elt Ideal)) (r : Fin 65536) (p : Fin 256) :
    val_main_v23 (F := Ideal) x0 x1 x2 x5 x6 (ix2 r p)
      = Mdn.affine (Mdn.hidden (rowAt x0 r) (mat x1) (vec x2)) (mat x5) (vec x6) p := by
  rw [val_main_v23_apply, val_main_v20_apply, val_main_v22_apply, val_main_v21_apply]
  have el : ∀ k : Fin 256, lidx_main_v20 (ix2 r p) k = ix2 r k := fun k =>
    funext fun a => Fin.ext (by match a with | ⟨0, _⟩ => rfl | ⟨1, _⟩ => rfl)
  have er : ∀ k : Fin 256, ridx_main_v20 (ix2 r p) k = ix2 k p := fun k =>
    funext fun a => Fin.ext (by match a with | ⟨0, _⟩ => rfl | ⟨1, _⟩ => rfl)
  have eb : idx_main_v21 (idx_main_v22 (ix2 r p)) = ix1 p :=
    funext fun a => Fin.ext (by match a with | ⟨0, _⟩ => rfl)
  rw [eb, Ideal.addf_def]
  unfold Mdn.affine
  refine congrArg (· + x6 (ix1 p)) (Finset.sum_congr rfl fun k _ => ?_)
  rw [el, er, hidden_at]
  rfl

/-- The comparison of the two coordinates, as a bit: 1 on the diagonal, 0 off it. -/
private theorem eqBit (i j : Fin 16) :
    IntOp.cmpi .eq (IntOp.addi (BitVec.ofNat 32 i.val) 0#32) (BitVec.ofNat 32 j.val) = if i = j then 1#1 else 0#1 := by
  revert i j
  decide

/-- The converted comparison is the identity matrix of order 16. -/
private theorem eye_at (i j : Fin 16) : val_main_v31 (F := Ideal) (ix2 i j) = Mdn.eye i j := by
  rw [val_main_v31_apply, val_main_v30_apply, val_main_v29_apply, val_main_v26_apply, val_main_v27_apply,
    val_main_v28_apply, val_main_c_apply]
  show FloatOps.uitofp (F := Ideal) .f32 (IntOp.cmpi .eq (IntOp.addi (BitVec.ofNat 32 i.val) 0#32) (BitVec.ofNat 32 j.val)) = _
  rw [eqBit]
  unfold Mdn.eye
  by_cases h : i = j
  · rw [if_pos h, if_pos h]
    show (((1#1 : BitVec 1).toNat : ℝ) : EReal) = 1
    norm_num
  · rw [if_neg h, if_neg h]
    show (((0#1 : BitVec 1).toNat : ℝ) : EReal) = 0
    norm_num

/-- The reference's second result is the scale matrices of every row. -/
theorem ref_sigma (x0 : (⟨S65536x32, .f32⟩ : BufTy).Contents (Elt Ideal)) (x1 : (⟨S32x256, .f32⟩ : BufTy).Contents (Elt Ideal))
    (x2 : (⟨S256, .f32⟩ : BufTy).Contents (Elt Ideal)) (x5 : (⟨S256x256, .f32⟩ : BufTy).Contents (Elt Ideal))
    (x6 : (⟨S256, .f32⟩ : BufTy).Contents (Elt Ideal)) :
    val_main_v36 (F := Ideal) x0 x1 x2 x5 x6 = sigmaAll x0 x1 x2 x5 x6 := by
  funext i
  obtain ⟨r, k, c, d, rfl⟩ : ∃ (r : Fin 65536) (k c d : Fin 16), i = ix4 r k c d := ⟨i 0, i 1, i 2, i 3, eq_ix4 i⟩
  rw [sigmaAll_ix4, val_main_v36_apply, val_main_v34_apply, val_main_v32_apply, val_main_v25_apply, val_main_v24_apply,
    val_main_v35_apply, val_main_v33_apply]
  have e3 : idx_main_v32 (idx_main_v34 (ix4 r k c d)) = ix3 r k c :=
    funext fun a => Fin.ext (by match a with | ⟨0, _⟩ => rfl | ⟨1, _⟩ => rfl | ⟨2, _⟩ => rfl)
  have e2 : idx_main_v33 (idx_main_v35 (ix4 r k c d)) = ix2 c d :=
    funext fun a => Fin.ext (by match a with | ⟨0, _⟩ => rfl | ⟨1, _⟩ => rfl)
  rw [e3, e2, reshape_idx', sigAffine_at, eye_at, Ideal.mulf_def, Ideal.hostUnary_exp_def]
  rfl

/-- The same position, for the means' reshape. -/
private theorem reshape_idx (r : Fin 65536) (k i : Fin 16) :
    idx_main_v41 (ix3 r k i) = ix2 r (Mdn.flat k i) := by
  funext a
  match a with
  | ⟨0, _⟩ =>
    refine Fin.ext ?_
    show ((r.val * 16 + k.val) * 16 + i.val) / 256 = r.val
    have := k.isLt; have := i.isLt; omega
  | ⟨1, _⟩ =>
    refine Fin.ext ?_
    show ((r.val * 16 + k.val) * 16 + i.val) % 256 = k.val * 16 + i.val
    have := k.isLt; have := i.isLt; omega

/-- The means' affine head at (r, p). -/
private theorem muAffine_at (x0 : (⟨S65536x32, .f32⟩ : BufTy).Contents (Elt Ideal)) (x1 : (⟨S32x256, .f32⟩ : BufTy).Contents (Elt Ideal))
    (x2 : (⟨S256, .f32⟩ : BufTy).Contents (Elt Ideal)) (x7 : (⟨S256x256, .f32⟩ : BufTy).Contents (Elt Ideal))
    (x8 : (⟨S256, .f32⟩ : BufTy).Contents (Elt Ideal)) (r : Fin 65536) (p : Fin 256) :
    val_main_v40 (F := Ideal) x0 x1 x2 x7 x8 (ix2 r p)
      = Mdn.affine (Mdn.hidden (rowAt x0 r) (mat x1) (vec x2)) (mat x7) (vec x8) p := by
  rw [val_main_v40_apply, val_main_v37_apply, val_main_v39_apply, val_main_v38_apply]
  have el : ∀ k : Fin 256, lidx_main_v37 (ix2 r p) k = ix2 r k := fun k =>
    funext fun a => Fin.ext (by match a with | ⟨0, _⟩ => rfl | ⟨1, _⟩ => rfl)
  have er : ∀ k : Fin 256, ridx_main_v37 (ix2 r p) k = ix2 k p := fun k =>
    funext fun a => Fin.ext (by match a with | ⟨0, _⟩ => rfl | ⟨1, _⟩ => rfl)
  have eb : idx_main_v38 (idx_main_v39 (ix2 r p)) = ix1 p :=
    funext fun a => Fin.ext (by match a with | ⟨0, _⟩ => rfl)
  rw [eb, Ideal.addf_def]
  unfold Mdn.affine
  refine congrArg (· + x8 (ix1 p)) (Finset.sum_congr rfl fun k _ => ?_)
  rw [el, er, hidden_at]
  rfl

/-- The reference's third result is the means of every row. -/
theorem ref_mu (x0 : (⟨S65536x32, .f32⟩ : BufTy).Contents (Elt Ideal)) (x1 : (⟨S32x256, .f32⟩ : BufTy).Contents (Elt Ideal))
    (x2 : (⟨S256, .f32⟩ : BufTy).Contents (Elt Ideal)) (x7 : (⟨S256x256, .f32⟩ : BufTy).Contents (Elt Ideal))
    (x8 : (⟨S256, .f32⟩ : BufTy).Contents (Elt Ideal)) :
    val_main_v41 (F := Ideal) x0 x1 x2 x7 x8 = muAll x0 x1 x2 x7 x8 := by
  funext i
  obtain ⟨r, k, c, rfl⟩ : ∃ (r : Fin 65536) (k c : Fin 16), i = ix3 r k c := ⟨i 0, i 1, i 2, eq_ix3 i⟩
  rw [muAll_ix3, val_main_v41_apply, reshape_idx, muAffine_at]
  rfl

end Cert.ReferenceIdeal.RefValue

end
-- ==== Proof.lean ====
/-
  The kernel computes the three heads of a mixture-density network, 512 batch rows at a grid point; the reference
  computes them with jnp over the whole batch of 65536 rows. Over the extended reals the two are one function of the
  arguments: each head is defined row by row (Proof/Spec.lean) from finite sums, tanh, exp, a maximum and a quotient,
  and neither a sum's order nor the number of rows computed together enters it.

  * Proof/BodyRows.lean: the body's stored values, read at an index of a block, are the heads at that row of the block.
  * Proof/Blocks.lean: the blocks a grid point is handed are rows of x, the weights whole, and each bias as the one row
    of its reshaped vector.
  * Proof/Whole.lean: so point t writes back rows 512 t … 512 t + 511 of each head over the whole batch, these blocks
    cover the results, and the kernel's run ends with the three results at the three heads.
  * Proof/RefRows.lean: the reference's three results, read index by index, are the same three heads.

  The three frames are the generated frame runs (the reference's being its run with the results dropped); the
  idealization rewrote nothing, so it has nothing to preserve; the algebraic claim sets the two runs side by side.
  No law used here needs the inputs to be finite, so the precondition is never opened.
-/
import proofs.«161741_j6485400617753_1_alg».proof.Defs
import proofs.«161741_j6485400617753_1_alg».proof.Proof.Gen.Kernel
import proofs.«161741_j6485400617753_1_alg».proof.Proof.Gen.Kernel.Skeleton
import proofs.«161741_j6485400617753_1_alg».proof.Proof.Gen.Kernel.Launch
import proofs.«161741_j6485400617753_1_alg».proof.Proof.Gen.Kernel.Points
import proofs.«161741_j6485400617753_1_alg».proof.Proof.Gen.Kernel.Frame
import proofs.«161741_j6485400617753_1_alg».proof.Proof.Gen.KernelIdeal
import proofs.«161741_j6485400617753_1_alg».proof.Proof.Gen.KernelIdeal.Skeleton
import proofs.«161741_j6485400617753_1_alg».proof.Proof.Gen.KernelIdeal.Launch
import proofs.«161741_j6485400617753_1_alg».proof.Proof.Gen.KernelIdeal.Points
import proofs.«161741_j6485400617753_1_alg».proof.Proof.Gen.KernelIdeal.Frame
import proofs.«161741_j6485400617753_1_alg».proof.Proof.Gen.KernelIdeal.Value
import proofs.«161741_j6485400617753_1_alg».proof.Proof.Gen.ReferenceIdeal
import proofs.«161741_j6485400617753_1_alg».proof.Proof.Gen.ReferenceIdeal.Run
import proofs.«161741_j6485400617753_1_alg».proof.Proof.Gen.ReferenceIdeal.Read
import proofs.«161741_j6485400617753_1_alg».proof.Proof.Gen.Pre_finite_inputs
import proofs.«161741_j6485400617753_1_alg».proof.Proof.Whole
import proofs.«161741_j6485400617753_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with what it says of the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the nine arguments both programs end with the three heads of the network over the
    whole batch: the kernel block by block, the reference by its operations read at an index. -/
theorem algebraic : Cert.algebraic_KernelIdeal_ReferenceIdeal := by
  intro m ρ m' ρ' _ hagree
  refine ⟨fun c => Cert.KernelIdeal.Whole.piOf m c, fun c => Cert.KernelIdeal.Whole.sigmaOf m c,
    fun c => Cert.KernelIdeal.Whole.muOf m c, Cert.KernelIdeal.Whole.run m ρ, ?_⟩
  refine (θ_run Cert.ReferenceIdeal.defs _ _).mono (fun _ h c => ?_) (Cert.ReferenceIdeal.Value.run (F := Ideal) m' ρ')
  obtain ⟨h0, h1, h2, hrest⟩ := h c
  obtain ⟨a0, a1, a2, a3, a4, a5, a6, a7, a8⟩ := hagree c
  refine ⟨h0.trans ?_, h1.trans ?_, h2.trans ?_, hrest⟩
  · rw [Cert.ReferenceIdeal.Read.val_main_v19_eq, Cert.ReferenceIdeal.RefValue.ref_pi, a0, a1, a2, a3, a4]
  · rw [Cert.ReferenceIdeal.Read.val_main_v36_eq, Cert.ReferenceIdeal.RefValue.ref_sigma, a0, a1, a2, a5, a6]
  · rw [Cert.ReferenceIdeal.Read.val_main_v41_eq, Cert.ReferenceIdeal.RefValue.ref_mu, a0, a1, a2, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
